-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8256 : Shape := ⟨2, ![256, 8256]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256x8256 32) (main_arg1 : IVec S256x8256 32) (main_arg2 : IVec S256x8256 1) (main_arg3 : FVec F S256 .f32) : IVec S_ 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  main_v3
-- ==== Kernel.lean ====
abbrev S256x8256 : Shape := ⟨2, ![256, 8256]⟩
abbrev S256 : Shape := ⟨1, ![256]⟩
abbrev S256x128 : Shape := ⟨2, ![256, 128]⟩
abbrev S256x8128 : Shape := ⟨2, ![256, 8128]⟩
abbrev S256x128x128 : Shape := ⟨3, ![256, 128, 128]⟩
abbrev S32x128 : Shape := ⟨2, ![32, 128]⟩
abbrev S32x128x128 : Shape := ⟨3, ![32, 128, 128]⟩
abbrev S32x128x1 : Shape := ⟨3, ![32, 128, 1]⟩
abbrev S256x8128x16 : Shape := ⟨3, ![256, 8128, 16]⟩
abbrev S16x8128 : Shape := ⟨2, ![16, 8128]⟩
abbrev S16x8128x16 : Shape := ⟨3, ![16, 8128, 16]⟩
abbrev S16x8128x1 : Shape := ⟨3, ![16, 8128, 1]⟩

abbrev nBuf : Space → Nat
  | .hbm => 8
  | .vmem => 8
  | .smem => 0
  | _ => 0

abbrev bufTy : (tb : Table) → Fin (tcTables nBuf tb) → BufTy
  | .hbm, ⟨0, _⟩ => ⟨S256x8256, .i32⟩
  | .hbm, ⟨1, _⟩ => ⟨S256x8256, .i32⟩
  | .hbm, ⟨2, _⟩ => ⟨S256x8256, .i1⟩
  | .hbm, ⟨3, _⟩ => ⟨S256, .f32⟩
  | .hbm, ⟨4, _⟩ => ⟨S256x128, .i32⟩
  | .hbm, ⟨5, _⟩ => ⟨S256x8128, .i32⟩
  | .hbm, ⟨6, _⟩ => ⟨S256x128x128, .f32⟩
  | .hbm, ⟨7, _⟩ => ⟨S256x8128x16, .f32⟩
  | .local _ .vmem, ⟨0, _⟩ => ⟨S32x128, .i32⟩
  | .local _ .vmem, ⟨1, _⟩ => ⟨S32x128, .i32⟩
  | .local _ .vmem, ⟨2, _⟩ => ⟨S32x128x128, .f32⟩
  | .local _ .vmem, ⟨3, _⟩ => ⟨S32x128x128, .f32⟩
  | .local _ .vmem, ⟨4, _⟩ => ⟨S16x8128, .i32⟩
  | .local _ .vmem, ⟨5, _⟩ => ⟨S16x8128, .i32⟩
  | .local _ .vmem, ⟨6, _⟩ => ⟨S16x8128x16, .f32⟩
  | .local _ .vmem, ⟨7, _⟩ => ⟨S16x8128x16, .f32⟩
  | _, _ => ⟨S256x8256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x8128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S256x8256_S256x128_0_0 : S256x8256.Slices ![0, 0] S256x128
  slices_S256x8256_S256x8128_0_128 : S256x8256.Slices ![0, 128] S256x8128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S32x128x128_d2_w32 : S32x128x128.Iotas .tc 32 [2]
  shapeCasts_S32x128_S32x128x1 : S32x128.ShapeCasts S32x128x1
  broadcasts_S32x128x1_S32x128x128 : S32x128x1.Broadcasts S32x128x128
  inb_S32x128x128_S32x128x128_0_0_0 : ∀ a, (![0, 0, 0] : Fin 3 → Nat) a + S32x128x128.size a ≤ S32x128x128.size a
  h_S32x128x128 : 0 < S32x128x128.numel
  inb_S16x8128_S16x8128_0_0 : ∀ a, (![0, 0] : Fin 2 → Nat) a + S16x8128.size a ≤ S16x8128.size a
  h_S16x8128 : 0 < S16x8128.numel
  shapeCasts_S16x8128_S16x8128 : S16x8128.ShapeCasts S16x8128
  iota_S16x8128x16_d2_w32 : S16x8128x16.Iotas .tc 32 [2]
  shapeCasts_S16x8128_S16x8128x1 : S16x8128.ShapeCasts S16x8128x1
  broadcasts_S16x8128x1_S16x8128x16 : S16x8128x1.Broadcasts S16x8128x16
  inb_S16x8128x16_S16x8128x16_0_0_0 : ∀ a, (![0, 0, 0] : Fin 3 → Nat) a + S16x8128x16.size a ≤ S16x8128x16.size a
  h_S16x8128x16 : 0 < S16x8128x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S256x128.size a
  hwx0_0 : ∀ i : grid0.Coords, EltTy.bits .i32 = 32 ∨ (Rect.block (s := S256x128) S32x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S256x128x128.size a
  hwx0_1 : ∀ i : grid0.Coords, EltTy.bits .f32 = 32 ∨ (Rect.block (s := S256x128x128) S32x128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8128.size a ≤ S256x8128.size a
  hwx1_0 : ∀ i : grid1.Coords, EltTy.bits .i32 = 32 ∨ (Rect.block (s := S256x8128) S16x8128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x8128x16.size a ≤ S256x8128x16.size a
  hwx1_1 : ∀ i : grid1.Coords, EltTy.bits .f32 = 32 ∨ (Rect.block (s := S256x8128x16) S16x8128x16.size (cc1_transform_1 i) (hinb1_1 i)).WholeWords (EltTy.packing .f32)

variable [Facts₀]

abbrev win0_0 : Pipeline.Window sig grid0 :=
  Pipeline.Window.ofSpec (Memref.whole main_v0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S16x8128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x8128x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S256x8256 : Shape := ⟨2, ![256, 8256]⟩
abbrev S256 : Shape := ⟨1, ![256]⟩
abbrev S256x128 : Shape := ⟨2, ![256, 128]⟩
abbrev S256x128x1 : Shape := ⟨3, ![256, 128, 1]⟩
abbrev S1x1x128 : Shape := ⟨3, ![1, 1, 128]⟩
abbrev S256x128x128 : Shape := ⟨3, ![256, 128, 128]⟩
abbrev S_ : Shape := ⟨0, ![]⟩
abbrev S256x8128 : Shape := ⟨2, ![256, 8128]⟩
abbrev S256x8128x1 : Shape := ⟨3, ![256, 8128, 1]⟩
abbrev S1x1x16 : Shape := ⟨3, ![1, 1, 16]⟩
abbrev S256x8128x16 : Shape := ⟨3, ![256, 8128, 16]⟩

abbrev nBuf : Space → Nat
  | .hbm => 30
  | .vmem => 0
  | .smem => 0
  | _ => 0

abbrev bufTy : (tb : Table) → Fin (tcTables nBuf tb) → BufTy
  | .hbm, ⟨0, _⟩ => ⟨S256x8256, .i32⟩
  | .hbm, ⟨1, _⟩ => ⟨S256x8256, .i32⟩
  | .hbm, ⟨2, _⟩ => ⟨S256x8256, .i1⟩
  | .hbm, ⟨3, _⟩ => ⟨S256, .f32⟩
  | .hbm, ⟨4, _⟩ => ⟨S256x128, .i32⟩
  | .hbm, ⟨5, _⟩ => ⟨S256x128x1, .i32⟩
  | .hbm, ⟨6, _⟩ => ⟨S1x1x128, .i32⟩
  | .hbm, ⟨7, _⟩ => ⟨S256x128x128, .i32⟩
  | .hbm, ⟨8, _⟩ => ⟨S256x128x128, .i32⟩
  | .hbm, ⟨9, _⟩ => ⟨S256x128x128, .i1⟩
  | .hbm, ⟨10, _⟩ => ⟨S256x128x128, .f32⟩
  | .hbm, ⟨11, _⟩ => ⟨S_, .f32⟩
  | .hbm, ⟨12, _⟩ => ⟨S256x128x128, .f32⟩
  | .hbm, ⟨13, _⟩ => ⟨S256x128x128, .f32⟩
  | .hbm, ⟨14, _⟩ => ⟨S_, .f32⟩
  | .hbm, ⟨15, _⟩ => ⟨S256x128x128, .f32⟩
  | .hbm, ⟨16, _⟩ => ⟨S256x128x128, .f32⟩
  | .hbm, ⟨17, _⟩ => ⟨S256x8128, .i32⟩
  | .hbm, ⟨18, _⟩ => ⟨S256x8128x1, .i32⟩
  | .hbm, ⟨19, _⟩ => ⟨S1x1x16, .i32⟩
  | .hbm, ⟨20, _⟩ => ⟨S256x8128x16, .i32⟩
  | .hbm, ⟨21, _⟩ => ⟨S256x8128x16, .i32⟩
  | .hbm, ⟨22, _⟩ => ⟨S256x8128x16, .i1⟩
  | .hbm, ⟨23, _⟩ => ⟨S256x8128x16, .f32⟩
  | .hbm, ⟨24, _⟩ => ⟨S_, .f32⟩
  | .hbm, ⟨25, _⟩ => ⟨S256x8128x16, .f32⟩
  | .hbm, ⟨26, _⟩ => ⟨S256x8128x16, .f32⟩
  | .hbm, ⟨27, _⟩ => ⟨S_, .f32⟩
  | .hbm, ⟨28, _⟩ => ⟨S256x8128x16, .f32⟩
  | .hbm, ⟨29, _⟩ => ⟨S256x8128x16, .f32⟩
  | _, _ => ⟨S256x8256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]

class Facts₀ : Prop where
  slices_S256x8256_S256x128_0_0 : S256x8256.Slices ![0, 0] S256x128
  bcast_S256x128_S256x128x1_0_1 : S256x128.BroadcastsInDim S256x128x1 (![0, 1] : Fin 2 → Fin S256x128x1.rank)
  bcast_S256x128x1_S256x128x128_0_1_2 : S256x128x1.BroadcastsInDim S256x128x128 (![0, 1, 2] : Fin 3 → Fin S256x128x128.rank)
  bcast_S1x1x128_S256x128x128_0_1_2 : S1x1x128.BroadcastsInDim S256x128x128 (![0, 1, 2] : Fin 3 → Fin S256x128x128.rank)
  bcast_S_S256x128x128 : S_.BroadcastsInDim S256x128x128 (![] : Fin 0 → Fin S256x128x128.rank)
  slices_S256x8256_S256x8128_0_128 : S256x8256.Slices ![0, 128] S256x8128
  bcast_S256x8128_S256x8128x1_0_1 : S256x8128.BroadcastsInDim S256x8128x1 (![0, 1] : Fin 2 → Fin S256x8128x1.rank)
  bcast_S256x8128x1_S256x8128x16_0_1_2 : S256x8128x1.BroadcastsInDim S256x8128x16 (![0, 1, 2] : Fin 3 → Fin S256x8128x16.rank)
  bcast_S1x1x16_S256x8128x16_0_1_2 : S1x1x16.BroadcastsInDim S256x8128x16 (![0, 1, 2] : Fin 3 → Fin S256x8128x16.rank)
  bcast_S_S256x8128x16 : S_.BroadcastsInDim S256x8128x16 (![] : Fin 0 → Fin S256x8128x16.rank)

variable [Facts₀]

class Facts : Prop extends Facts₀ where

variable [Facts]
-- ==== Proof.LibTrailingUnit.lean ====
/-
  Two layout steps read at an index, for a matrix carried as a column of its entries along a new last axis.

  A `[a, b]` matrix viewed as `[a, b, 1]` (a trailing unit axis) has the same row-major order, so its entry
  `(p, q, 0)` is the matrix's entry `(p, q)`.  Broadcasting `[a, b, 1]` along the last axis to `[a, b, n]` repeats
  each entry `n` times: the result's entry `(p, q, k)` is the operand's entry `(p, q, 0)` for every `k`.  Together
  they read `x[:, :, None]` broadcast against a last axis of extent `n` as `x(p, q)` at `(p, q, k)`.
-/
import Idealize.ShloMosaic.Lib.ValueIdx
import Idealize.ShloMosaic.Lib.Pipeline.Value

noncomputable section

namespace Cert.Lib.TrailingUnit

open Idealize.ShloMosaic Idealize.ShloMosaic.ValueIdx

variable {α : Type}

/-- A matrix viewed with a trailing unit axis reads `(p, q, 0)` at `(p, q)`: both indices have row-major position
    `p · b + q`. -/
theorem shapeCast_trailingUnit_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h (ix3 p q z) (ix2 p q) ?_
  rw [Shape.rowMajor_val_two, Shape.rowMajor_val_three]
  show p.val * b + q.val = (p.val * b + q.val) * 1 + z.val
  have hz : z.val = 0 := by have := z.isLt; omega
  omega

/-- A column `[a, b, 1]` broadcast along its last axis to `[a, b, n]` reads `(p, q, k)` at `(p, q, 0)`: the
    first two coordinates are kept (an axis of extent 1 only has the coordinate 0), the last is the unit axis's 0. -/
theorem broadcastTo_lastAxis_apply {a b n : ℕ} (x : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ x h (ix3 p q k) = x (ix3 p q (0 : Fin 1)) := by
  refine broadcastTo_apply x h (ix3 p q k) (ix3 p q (0 : Fin 1)) ?_
  intro d
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else k.val
    rw [if_pos rfl]

end Cert.Lib.TrailingUnit

end
-- ==== Proof.Spec.lean ====
/-
  One-hot logits: the specification both programs are compared with, and the one law that joins them.

  For a token `x` (a 32-bit integer) and a class index `k`, the logit is 100 where `x` equals `k` as 32-bit
  integers and -100 elsewhere.  The kernel selects between the two literals by the comparison bit; the reference
  converts the comparison bit `b` to a float (0 or 1) and forms `-100 + 200 · b`.  On the extended reals
  `-100 + 200 · 1 = 100` and `-100 + 200 · 0 = -100`: every number involved is a finite real, and the three float
  literals are exact integers, so the two forms agree for both values of the bit.

  The node logits read the token at row `a`, column `p` of the token table for `p < 128`; the edge logits read row
  `a`, column `128 + p` for `p < 8128`.
-/
import Idealize.ShloMosaic.PureOps.Ideal
import Idealize.ShloMosaic.Lib.ValueIdx

noncomputable section

namespace Cert.OneHot

open Idealize.ShloMosaic Idealize.ShloMosaic.ValueIdx

/-! ## The three float literals -/

/-- The pattern `0x42C80000` denotes the real 100. -/
theorem hi_val : Ideal.ofBits .f32 0x42C80000#32 = ((100 : ℝ) : EReal) := by
  simp [Ideal.ofBits, Ideal.ieee, -EReal.coe_mul]; norm_num

/-- The pattern `0xC2C80000` denotes the real -100. -/
theorem lo_val : Ideal.ofBits .f32 0xC2C80000#32 = ((-100 : ℝ) : EReal) := by
  simp [Ideal.ofBits, Ideal.ieee, -EReal.coe_mul]; norm_num

/-- The pattern `0x43480000` denotes the real 200. -/
theorem scale_val : Ideal.ofBits .f32 0x43480000#32 = ((200 : ℝ) : EReal) := by
  simp [Ideal.ofBits, Ideal.ieee, -EReal.coe_mul]; norm_num

/-! ## The logit of one class, and the law -/

/-- The logit of class `k` for token `x`: 100 where they are equal as 32-bit integers, -100 elsewhere. -/
def logit (x : BitVec 32) (k : Nat) : EReal :=
  Scalar.select (IntOp.cmpi .eq x (BitVec.ofNat 32 k)) (Ideal.ofBits .f32 0x42C80000#32) (Ideal.ofBits .f32 0xC2C80000#32)

/-- A bit converted to a float at the ideal instance is the real 0 or 1 it counts. -/
theorem uitofp_bit (b : BitVec 1) : FloatOps.uitofp (F := Ideal) .f32 b = ((b.toNat : ℝ) : EReal) := rfl

/-- `-100 + 200 · b = (if b then 100 else -100)` for a bit `b` read as the real 0 or 1. -/
theorem affine_eq_select (b : BitVec 1) :
    Ideal.ofBits .f32 0xC2C80000#32 + Ideal.ofBits .f32 0x43480000#32 * ((b.toNat : ℝ) : EReal)
      = Scalar.select b (Ideal.ofBits .f32 0x42C80000#32) (Ideal.ofBits .f32 0xC2C80000#32) := by
  rw [hi_val, lo_val, scale_val]
  by_cases h : b = 1#1
  · subst h
    rw [select_one]
    have e : ((1#1 : BitVec 1).toNat : ℝ) = 1 := by norm_num
    rw [e, ← EReal.coe_mul, ← EReal.coe_add]
    norm_num
  · have h0 : b = 0#1 := eq_zero_of_ne_one h
    subst h0
    rw [select_zero]
    have e : ((0#1 : BitVec 1).toNat : ℝ) = 0 := by norm_num
    rw [e, ← EReal.coe_mul, ← EReal.coe_add]
    norm_num

/-! ## The two result arrays as functions of the token table -/

/-- Where a node-logit entry `(a, p, k)` reads the token table: row `a`, column `p`. -/
abbrev nodeSrc (i : (⟨3, ![256, 128, 128]⟩ : Shape).Idx) : (⟨2, ![256, 8256]⟩ : Shape).Idx :=
  ix2 (n0 := 256) (n1 := 8256) ⟨(i 0).val, (i 0).isLt⟩
    ⟨(i 1).val, by have h : (i 1).val < 128 := (i 1).isLt; omega⟩

/-- Where an edge-logit entry `(a, p, k)` reads the token table: row `a`, column `128 + p`. -/
abbrev edgeSrc (i : (⟨3, ![256, 8128, 16]⟩ : Shape).Idx) : (⟨2, ![256, 8256]⟩ : Shape).Idx :=
  ix2 (n0 := 256) (n1 := 8256) ⟨(i 0).val, (i 0).isLt⟩
    ⟨128 + (i 1).val, by have h : (i 1).val < 8128 := (i 1).isLt; omega⟩

/-- Node logits: entry `(a, p, k)` is the logit of class `k` for the token at row `a`, column `p`. -/
def nodeLogits (x : (⟨2, ![256, 8256]⟩ : Shape).Idx → BitVec 32) : (⟨3, ![256, 128, 128]⟩ : Shape).Idx → EReal :=
  fun i => logit (x (nodeSrc i)) (i 2).val

/-- Edge logits: entry `(a, p, k)` is the logit of class `k` for the token at row `a`, column `128 + p`. -/
def edgeLogits (x : (⟨2, ![256, 8256]⟩ : Shape).Idx → BitVec 32) : (⟨3, ![256, 8128, 16]⟩ : Shape).Idx → EReal :=
  fun i => logit (x (edgeSrc i)) (i 2).val

end Cert.OneHot

end
-- ==== Proof.RefLogits.lean ====
/-
  The reference's two results are the one-hot logits of the token table.

  The reference slices the token table (columns 0..127 for the nodes, 128..8255 for the edges), appends a unit axis,
  broadcasts it along the class axis, compares it with the class index (an iota along the last axis broadcast over
  rows and columns), converts the comparison bit to a float and forms `-100 + 200 · bit`.  Read at an index
  `(a, p, k)`, operation by operation, this is `-100 + 200 · [x(a, p) = k]` (with `p` shifted by 128 for the
  edges), which the law `affine_eq_select` turns into the logit.
-/
import proofs.«113180_j13400297963682_1_alg».proof.Proof.Gen.ReferenceIdeal.Read
import proofs.«113180_j13400297963682_1_alg».proof.Proof.Spec

noncomputable section

namespace Cert.ReferenceIdeal.Logits

open Cert.ReferenceIdeal Cert.ReferenceIdeal.Read Idealize.ShloMosaic Idealize.ShloMosaic.ValueIdx Cert.OneHot

/-- Through slice, unit axis and broadcast, a node entry `(a, p, k)` reads the table at row `a`, column `p`. -/
theorem node_src (i : S256x128x128.Idx) :
    idx_main_v0 (idx_main_call0_v0 (idx_main_call0_v2 i)) = nodeSrc i :=
  funext fun a => Fin.ext (by match a with | ⟨0, _⟩ => rfl | ⟨1, _⟩ => rfl)

/-- Through slice, unit axis and broadcast, an edge entry `(a, p, k)` reads the table at row `a`, column `128 + p`. -/
theorem edge_src (i : S256x8128x16.Idx) :
    idx_main_v6 (idx_main_call1_v0 (idx_main_call1_v2 i)) = edgeSrc i :=
  funext fun a => Fin.ext (by match a with | ⟨0, _⟩ => rfl | ⟨1, _⟩ => rfl)

/-- The reference's first result is the node logits of the token table. -/
theorem node_eq (x0 : (⟨S256x8256, .i32⟩ : BufTy).Contents (Elt Ideal)) :
    val_main_v5 (F := Ideal) x0 = nodeLogits x0 := by
  funext i
  rw [val_main_v5_apply, val_main_v4_apply, val_main_cst_0_apply, val_main_v3_apply, val_main_v2_apply,
    val_main_cst_apply, val_main_v1_apply, val_main_call0_v4_apply, val_main_call0_v2_apply,
    val_main_call0_v0_apply, val_main_v0_apply, val_main_call0_v3_apply, val_main_call0_v1_apply, node_src]
  simp only [Ideal.addf_def, Ideal.mulf_def, Ideal.ofBits_def, uitofp_bit]
  exact affine_eq_select _

/-- The reference's second result is the edge logits of the token table. -/
theorem edge_eq (x0 : (⟨S256x8256, .i32⟩ : BufTy).Contents (Elt Ideal)) :
    val_main_v11 (F := Ideal) x0 = edgeLogits x0 := by
  funext i
  rw [val_main_v11_apply, val_main_v10_apply, val_main_cst_2_apply, val_main_v9_apply, val_main_v8_apply,
    val_main_cst_1_apply, val_main_v7_apply, val_main_call1_v4_apply, val_main_call1_v2_apply,
    val_main_call1_v0_apply, val_main_v6_apply, val_main_call1_v3_apply, val_main_call1_v1_apply, edge_src]
  simp only [Ideal.addf_def, Ideal.mulf_def, Ideal.ofBits_def, uitofp_bit]
  exact affine_eq_select _

end Cert.ReferenceIdeal.Logits

end
-- ==== Proof.KernelRun.lean ====
/-
  The idealized kernel's run with its two result arrays named.

  @main is a stretch of two host slices followed by two pipelined regions.  The launch theorem for a program of
  several regions ends with every unscoped buffer of a core at the contents of the last segment boundary; the frame
  claim keeps of that only the four argument arrays.  Here the same run is read at the two result buffers as well:
  the node logits are region 0's output array after its last write-back (region 1 does not touch that buffer), the
  edge logits region 1's output array after its last write-back.
-/
import proofs.«113180_j13400297963682_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The node-logit buffer at the last boundary: region 1 leaves it as region 0 left it, and region 0 left its output
    array at the fold of its write-backs. -/
theorem last_main_v2 (c : Dev nD) :
    W3 m ρ c (Proc.devRef .tc main_v2) = (dat0 (V1 m ρ) c).arrAt 1 cfg0.N :=
  (W3_of_ne m ρ c main_v2 (by decide)).trans (W2_arr m ρ c 1)

/-- The edge-logit buffer at the last boundary: region 1's output array at the fold of its write-backs. -/
theorem last_main_v3 (c : Dev nD) :
    W3 m ρ c (Proc.devRef .tc main_v3) = (dat1 (V2 m ρ) c).arrAt 1 cfg1.N :=
  W3_arr m ρ c 1

set_option backward.isDefEq.respectTransparency.types false in
/-- Every weakly fair execution of @main terminates without a fault, with the two result buffers at their regions'
    output arrays after the last write-back and the four argument arrays as launched. -/
theorem run : θ_run defs (onTc (τ := τ) (main (F := F))) ⟨m, fun _ => 0, ρ⟩ (fun r => ∀ c : Dev nD,
      r.2.mem ((c.tc : Thread nD τ).loc main_v2) = (dat0 (V1 m ρ) c).arrAt 1 cfg0.N
      ∧ r.2.mem ((c.tc : Thread nD τ).loc main_v3) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (last_main_v2 m ρ c),
       (h c _ (mem_uc main_v3 (by decide))).trans (last_main_v3 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Outputs

end
-- ==== Proof.NodeValue.lean ====
/-
  Region 0 (the node kernel): its output array after the run is the node logits of the token table.

  The grid has 8 points; point `t` reads rows `32 t .. 32 t + 31` of the node slice of the token table (all 128
  columns) and writes rows `32 t .. 32 t + 31` of the [256, 128, 128] output (all columns and classes).  The body
  views its [32, 128] block with a trailing unit axis, broadcasts it along the class axis, compares it with the class
  index and selects 100 or -100: entry `(p, q, k)` of what it stores is the logit of class `k` for the block's
  token `(p, q)`.  The node slice is columns 0..127 of the token table, so that token is the table's entry at row
  `32 t + p`, column `q` — the entry the specification reads for output index `(32 t + p, q, k)`.  The eight row
  bands tile the output, so the array ends as the specification everywhere.
-/
import proofs.«113180_j13400297963682_1_alg».proof.Proof.Gen.KernelIdeal.Frame
import proofs.«113180_j13400297963682_1_alg».proof.Proof.Spec
import proofs.«113180_j13400297963682_1_alg».proof.Proof.LibTrailingUnit

set_option maxRecDepth 16384

noncomputable section

namespace Cert.KernelIdeal.NodeLogits

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.OneHot Cert.Lib.TrailingUnit

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What the body stores, at entry `(p, q, k)`: the logit of class `k` for the loaded block's token `(p, q)`. -/
theorem payload_apply (x0 : Vec Ideal S32x128 .i32) (p : Fin 32) (q : Fin 128) (k : Fin 128) :
    k0_pay1 (F := Ideal) x0 (ix3 p q k) = logit (x0 (ix2 p q)) k.val := by
  unfold k0_pay1
  show Scalar.select (IntOp.cmpi .eq
      (broadcastTo S32x128x128 (shapeCast S32x128x1 (shapeCast S32x128 x0 shapeCasts_S32x128_S32x128)
        shapeCasts_S32x128_S32x128x1) broadcasts_S32x128x1_S32x128x128 (ix3 p q k))
      (iota .tc S32x128x128 32 [2] iota_S32x128x128_d2_w32 (ix3 p q k))) _ _ = _
  rw [shapeCast_self, iota_single_apply, broadcastTo_lastAxis_apply, shapeCast_trailingUnit_apply]
  rfl

/-- When region 0 is entered, the node slice holds columns 0..127 of the token table. -/
theorem entry_slice (c : Dev nD) :
    (V1 m ρ c main_v0 : S256x128.Idx → BitVec 32)
      = extractStridedSlice S256x128 ![0, 0] (m ((c : Thread nD τ).loc main_arg0)) slices_S256x8256_S256x128_0_0 := by
  show StableHlo.after hostOps0 (W0 m ρ c) (Proc.devRef .tc main_v0) = _
  after_results

/-- The index maps over the grid: input and output blocks move together along the rows, and every other block index
    is zero. -/
theorem index_facts : ∀ t : Fin cfg0.N, win0_0.index t (0 : Fin 2) = win0_1.index t (0 : Fin 3)
    ∧ win0_0.index t (1 : Fin 2) = 0
    ∧ win0_1.index t (1 : Fin 3) = 0
    ∧ win0_1.index t (2 : Fin 3) = 0
    ∧ win0_1.index t (0 : Fin 3) ≤ 7 :=
  (by decide +kernel : ∀ t : Fin grid0.N, _)

/-- Every row band is some point's. -/
theorem index_onto : ∀ b : Fin 8, ∃ t : Fin cfg0.N, win0_1.index t = ![b.val, 0, 0] :=
  (by decide +kernel : ∀ b : Fin 8, ∃ t : Fin grid0.N, win0_1.index t = ![b.val, 0, 0])

/-- What point `t` writes back is its block of the node logits of the token table. -/
theorem flushed_eq (c : Dev nD) (t : Fin cfg0.N) :
    (dat0 (V1 m ρ) c).flushed 1 t
      = ((cfg0.win 1).blk t).view.read (Elt Ideal) (nodeLogits (m ((c : Thread nD τ).loc main_arg0))) := by
  show (cfg0.win 1).cut (grid0.coords t) ((dat0 (V1 m ρ) c).after 1 t) = _
  rw [after0_1]
  unfold out0_1
  rw [View.canon_unit_zero zero3]
  simp only [View.ld_unit_zero (S := S32x128) zero2]
  obtain ⟨e0, e1, e2, e3, e4⟩ := index_facts t
  funext j
  obtain ⟨p, q, k, rfl⟩ : ∃ (p : Fin 32) (q : Fin 128) (k : Fin 128), j = ix3 p q k := ⟨j 0, j 1, j 2, eq_ix3 j⟩
  show k0_pay1 (F := Ideal) (iblk0 (V1 m ρ) c 0 t) (ix3 p q k)
    = nodeLogits (m ((c : Thread nD τ).loc main_arg0)) (((cfg0.win 1).blk t).view.emb (ix3 p q k))
  refine (payload_apply (iblk0 (V1 m ρ) c 0 t) p q k).trans ?_
  unfold nodeLogits
  have hk : k.val = ((((cfg0.win 1).blk t).view.emb (ix3 p q k)) 2).val := by
    show k.val = win0_1.index t (2 : Fin 3) * 128 + 1 * k.val
    omega
  have hx : iblk0 (V1 m ρ) c 0 t (ix2 p q)
      = m ((c : Thread nD τ).loc main_arg0) (nodeSrc (((cfg0.win 1).blk t).view.emb (ix3 p q k))) := by
    show V1 m ρ c main_v0 (((cfg0.win 0).blk t).view.emb (ix2 p q)) = _
    rw [entry_slice]
    refine extractStridedSlice_apply (s := S256x8256) (t := S256x128) ![0, 0] (m ((c : Thread nD τ).loc main_arg0))
      slices_S256x8256_S256x128_0_0 (((cfg0.win 0).blk t).view.emb (ix2 p q))
      (nodeSrc (((cfg0.win 1).blk t).view.emb (ix3 p q k))) (fun a => ?_)
    match a with
    | ⟨0, _⟩ =>
      show win0_1.index t (0 : Fin 3) * 32 + 1 * p.val = 0 + (win0_0.index t (0 : Fin 2) * 32 + 1 * p.val)
      omega
    | ⟨1, _⟩ =>
      show win0_1.index t (1 : Fin 3) * 128 + 1 * q.val = 0 + (win0_0.index t (1 : Fin 2) * 128 + 1 * q.val)
      omega
  rw [hx, ← hk]

/-- An index of the output is in point `t`'s block iff each coordinate is in the block's range on its axis. -/
theorem mem_blk (t : Fin cfg0.N) (i : S256x128x128.Idx) :
    i ∈ ((cfg0.win 1).blk t).view.set ↔ ∀ a : Fin 3, win0_1.index t a * S32x128x128.size a ≤ (i a).val
      ∧ (i a).val < win0_1.index t a * S32x128x128.size a + S32x128x128.size a := by
  show i ∈ ((View.whole main_v2).slice (win0_1.rect t)).set ↔ _
  rw [View.set_slice_whole, Rect.mem_set_unit]
  exact Iff.rfl

/-- The eight row bands tile the output: row `r` is in the block of the point whose band is `r / 32`. -/
theorem cover (i : S256x128x128.Idx) :
    ∃ t : Fin cfg0.N, (cfg0.win 1).flush t = true ∧ i ∈ ((cfg0.win 1).blk t).view.set := by
  have hi0 : (i 0).val < 256 := (i 0).isLt
  have hi1 : (i 1).val < 128 := (i 1).isLt
  have hi2 : (i 2).val < 128 := (i 2).isLt
  obtain ⟨t, ht⟩ := index_onto ⟨(i 0).val / 32, by omega⟩
  have q0 : win0_1.index t (0 : Fin 3) = (i 0).val / 32 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 128 ≤ (i 2).val ∧ (i 2).val < win0_1.index t (2 : Fin 3) * 128 + 128
    omega

/-- Region 0's output array after its last write-back is the node logits of the token table as launched. -/
theorem final (c : Dev nD) :
    (dat0 (V1 m ρ) c).arrAt 1 cfg0.N = nodeLogits (m ((c : Thread nD τ).loc main_arg0)) :=
  (dat0 (V1 m ρ) c).arrAt_eq_of_cover 1 _ (fun t _ => flushed_eq m ρ c t) cover

end Cert.KernelIdeal.NodeLogits

end
-- ==== Proof.EdgeValue.lean ====
/-
  Region 1 (the edge kernel): its output array after the run is the edge logits of the token table.

  The grid has 16 points; point `t` reads rows `16 t .. 16 t + 15` of the edge slice of the token table (all 8128
  columns) and writes rows `16 t .. 16 t + 15` of the [256, 8128, 16] output (all columns and classes).  The body is
  the node kernel's at these extents: entry `(p, q, k)` of what it stores is the logit of class `k` for the
  block's token `(p, q)`.  The edge slice is columns 128..8255 of the token table, written by a host slice before
  region 0 and not touched by region 0, so that token is the table's entry at row `16 t + p`, column `128 + q` — the
  entry the specification reads for output index `(16 t + p, q, k)`.  The sixteen row bands tile the output, so
  the array ends as the specification everywhere.
-/
import proofs.«113180_j13400297963682_1_alg».proof.Proof.Gen.KernelIdeal.Frame
import proofs.«113180_j13400297963682_1_alg».proof.Proof.Spec
import proofs.«113180_j13400297963682_1_alg».proof.Proof.LibTrailingUnit

set_option maxRecDepth 16384

noncomputable section

namespace Cert.KernelIdeal.EdgeLogits

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.OneHot Cert.Lib.TrailingUnit

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What the body stores, at entry `(p, q, k)`: the logit of class `k` for the loaded block's token `(p, q)`. -/
theorem payload_apply (x0 : Vec Ideal S16x8128 .i32) (p : Fin 16) (q : Fin 8128) (k : Fin 16) :
    k1_pay1 (F := Ideal) x0 (ix3 p q k) = logit (x0 (ix2 p q)) k.val := by
  unfold k1_pay1
  show Scalar.select (IntOp.cmpi .eq
      (broadcastTo S16x8128x16 (shapeCast S16x8128x1 (shapeCast S16x8128 x0 shapeCasts_S16x8128_S16x8128)
        shapeCasts_S16x8128_S16x8128x1) broadcasts_S16x8128x1_S16x8128x16 (ix3 p q k))
      (iota .tc S16x8128x16 32 [2] iota_S16x8128x16_d2_w32 (ix3 p q k))) _ _ = _
  rw [shapeCast_self, iota_single_apply, broadcastTo_lastAxis_apply, shapeCast_trailingUnit_apply]
  rfl

/-- When region 1 is entered, the edge slice holds columns 128..8255 of the token table: region 0 leaves that buffer
    as the host slice wrote it. -/
theorem entry_slice (c : Dev nD) :
    (V2 m ρ c main_v1 : S256x8128.Idx → BitVec 32)
      = extractStridedSlice S256x8128 ![0, 128] (m ((c : Thread nD τ).loc main_arg0)) slices_S256x8256_S256x8128_0_128 := by
  refine (W2_of_ne m ρ c main_v1 (by decide)).trans ?_
  show StableHlo.after hostOps0 (W0 m ρ c) (Proc.devRef .tc main_v1) = _
  after_results

/-- The index maps over the grid: input and output blocks move together along the rows, and every other block index
    is zero. -/
theorem index_facts : ∀ t : Fin cfg1.N, win1_0.index t (0 : Fin 2) = win1_1.index t (0 : Fin 3)
    ∧ win1_0.index t (1 : Fin 2) = 0
    ∧ win1_1.index t (1 : Fin 3) = 0
    ∧ win1_1.index t (2 : Fin 3) = 0
    ∧ win1_1.index t (0 : Fin 3) ≤ 15 :=
  (by decide +kernel : ∀ t : Fin grid1.N, _)

/-- Every row band is some point's. -/
theorem index_onto : ∀ b : Fin 16, ∃ t : Fin cfg1.N, win1_1.index t = ![b.val, 0, 0] :=
  (by decide +kernel : ∀ b : Fin 16, ∃ t : Fin grid1.N, win1_1.index t = ![b.val, 0, 0])

/-- What point `t` writes back is its block of the edge logits of the token table. -/
theorem flushed_eq (c : Dev nD) (t : Fin cfg1.N) :
    (dat1 (V2 m ρ) c).flushed 1 t
      = ((cfg1.win 1).blk t).view.read (Elt Ideal) (edgeLogits (m ((c : Thread nD τ).loc main_arg0))) := by
  show (cfg1.win 1).cut (grid1.coords t) ((dat1 (V2 m ρ) c).after 1 t) = _
  rw [after1_1]
  unfold out1_1
  rw [View.canon_unit_zero zero3]
  simp only [View.ld_unit_zero (S := S16x8128) zero2]
  obtain ⟨e0, e1, e2, e3, e4⟩ := index_facts t
  funext j
  obtain ⟨p, q, k, rfl⟩ : ∃ (p : Fin 16) (q : Fin 8128) (k : Fin 16), j = ix3 p q k := ⟨j 0, j 1, j 2, eq_ix3 j⟩
  show k1_pay1 (F := Ideal) (iblk1 (V2 m ρ) c 0 t) (ix3 p q k)
    = edgeLogits (m ((c : Thread nD τ).loc main_arg0)) (((cfg1.win 1).blk t).view.emb (ix3 p q k))
  refine (payload_apply (iblk1 (V2 m ρ) c 0 t) p q k).trans ?_
  unfold edgeLogits
  have hk : k.val = ((((cfg1.win 1).blk t).view.emb (ix3 p q k)) 2).val := by
    show k.val = win1_1.index t (2 : Fin 3) * 16 + 1 * k.val
    omega
  have hx : iblk1 (V2 m ρ) c 0 t (ix2 p q)
      = m ((c : Thread nD τ).loc main_arg0) (edgeSrc (((cfg1.win 1).blk t).view.emb (ix3 p q k))) := by
    show V2 m ρ c main_v1 (((cfg1.win 0).blk t).view.emb (ix2 p q)) = _
    rw [entry_slice]
    refine extractStridedSlice_apply (s := S256x8256) (t := S256x8128) ![0, 128] (m ((c : Thread nD τ).loc main_arg0))
      slices_S256x8256_S256x8128_0_128 (((cfg1.win 0).blk t).view.emb (ix2 p q))
      (edgeSrc (((cfg1.win 1).blk t).view.emb (ix3 p q k))) (fun a => ?_)
    match a with
    | ⟨0, _⟩ =>
      show win1_1.index t (0 : Fin 3) * 16 + 1 * p.val = 0 + (win1_0.index t (0 : Fin 2) * 16 + 1 * p.val)
      omega
    | ⟨1, _⟩ =>
      show 128 + (win1_1.index t (1 : Fin 3) * 8128 + 1 * q.val) = 128 + (win1_0.index t (1 : Fin 2) * 8128 + 1 * q.val)
      omega
  rw [hx, ← hk]

/-- An index of the output is in point `t`'s block iff each coordinate is in the block's range on its axis. -/
theorem mem_blk (t : Fin cfg1.N) (i : S256x8128x16.Idx) :
    i ∈ ((cfg1.win 1).blk t).view.set ↔ ∀ a : Fin 3, win1_1.index t a * S16x8128x16.size a ≤ (i a).val
      ∧ (i a).val < win1_1.index t a * S16x8128x16.size a + S16x8128x16.size a := by
  show i ∈ ((View.whole main_v3).slice (win1_1.rect t)).set ↔ _
  rw [View.set_slice_whole, Rect.mem_set_unit]
  exact Iff.rfl

/-- The sixteen row bands tile the output: row `r` is in the block of the point whose band is `r / 16`. -/
theorem cover (i : S256x8128x16.Idx) :
    ∃ t : Fin cfg1.N, (cfg1.win 1).flush t = true ∧ i ∈ ((cfg1.win 1).blk t).view.set := by
  have hi0 : (i 0).val < 256 := (i 0).isLt
  have hi1 : (i 1).val < 8128 := (i 1).isLt
  have hi2 : (i 2).val < 16 := (i 2).isLt
  obtain ⟨t, ht⟩ := index_onto ⟨(i 0).val / 16, by omega⟩
  have q0 : win1_1.index t (0 : Fin 3) = (i 0).val / 16 := congrFun ht 0
  have q1 : win1_1.index t (1 : Fin 3) = 0 := congrFun ht 1
  have q2 : win1_1.index t (2 : Fin 3) = 0 := congrFun ht 2
  refine ⟨t, flush1_1 t, ?_⟩
  rw [mem_blk]
  intro a
  match a with
  | ⟨0, _⟩ =>
    show win1_1.index t (0 : Fin 3) * 16 ≤ (i 0).val ∧ (i 0).val < win1_1.index t (0 : Fin 3) * 16 + 16
    omega
  | ⟨1, _⟩ =>
    show win1_1.index t (1 : Fin 3) * 8128 ≤ (i 1).val ∧ (i 1).val < win1_1.index t (1 : Fin 3) * 8128 + 8128
    omega
  | ⟨2, _⟩ =>
    show win1_1.index t (2 : Fin 3) * 16 ≤ (i 2).val ∧ (i 2).val < win1_1.index t (2 : Fin 3) * 16 + 16
    omega

/-- Region 1's output array after its last write-back is the edge logits of the token table as launched. -/
theorem final (c : Dev nD) :
    (dat1 (V2 m ρ) c).arrAt 1 cfg1.N = edgeLogits (m ((c : Thread nD τ).loc main_arg0)) :=
  (dat1 (V2 m ρ) c).arrAt_eq_of_cover 1 _ (fun t _ => flushed_eq m ρ c t) cover

end Cert.KernelIdeal.EdgeLogits

end
-- ==== Proof.lean ====
/-
  One-hot logits by compare-and-select against `-100 + 200 · one_hot`: the kernel and its reference compute the
  same two arrays on the extended reals.

  Both programs read only the token table `x0` (the other three arguments are dead).  The reference forms, for the
  node slots (columns 0..127, 128 classes) and the edge slots (columns 128..8255, 16 classes), the array
  `-100 + 200 · [x0(a, col) = k]` with the bracket converted to the float 0 or 1.  The kernel slices the table the
  same way on the host and runs two pipelined regions, each of which writes, band of rows by band of rows,
  `select(x0(a, col) = k, 100, -100)`.  The three literals are the exact reals 100, -100 and 200, and
  `-100 + 200 · 1 = 100`, `-100 + 200 · 0 = -100` on the extended reals, so entry by entry the two programs hold
  the same number: the logit of the specification (Proof/Spec.lean).  No input needs to be finite for this: the
  only float argument is never read.

  The parts: Proof/Spec.lean (the specification and the law), Proof/RefLogits.lean (the reference's results are the
  specification), Proof/KernelRun.lean (the kernel's run with its result buffers named), Proof/NodeValue.lean and
  Proof/EdgeValue.lean (each region's output array is the specification).  The three frames: each kernel program's is
  its generated frame theorem, the reference's its generated run with the results dropped.  The idealization rewrote
  nothing, so `preserves` is trivial.
-/
import proofs.«113180_j13400297963682_1_alg».proof.Defs
import proofs.«113180_j13400297963682_1_alg».proof.Proof.Gen.Kernel
import proofs.«113180_j13400297963682_1_alg».proof.Proof.Gen.Kernel.Skeleton
import proofs.«113180_j13400297963682_1_alg».proof.Proof.Gen.Kernel.Launch
import proofs.«113180_j13400297963682_1_alg».proof.Proof.Gen.Kernel.Points
import proofs.«113180_j13400297963682_1_alg».proof.Proof.Gen.Kernel.Frame
import proofs.«113180_j13400297963682_1_alg».proof.Proof.Gen.KernelIdeal
import proofs.«113180_j13400297963682_1_alg».proof.Proof.Gen.KernelIdeal.Skeleton
import proofs.«113180_j13400297963682_1_alg».proof.Proof.Gen.KernelIdeal.Launch
import proofs.«113180_j13400297963682_1_alg».proof.Proof.Gen.KernelIdeal.Points
import proofs.«113180_j13400297963682_1_alg».proof.Proof.Gen.KernelIdeal.Frame
import proofs.«113180_j13400297963682_1_alg».proof.Proof.Gen.ReferenceIdeal
import proofs.«113180_j13400297963682_1_alg».proof.Proof.Gen.ReferenceIdeal.Run
import proofs.«113180_j13400297963682_1_alg».proof.Proof.Gen.ReferenceIdeal.Read
import proofs.«113180_j13400297963682_1_alg».proof.Proof.Gen.Pre_finite_inputs
import proofs.«113180_j13400297963682_1_alg».proof.Proof.LibTrailingUnit
import proofs.«113180_j13400297963682_1_alg».proof.Proof.Spec
import proofs.«113180_j13400297963682_1_alg».proof.Proof.RefLogits
import proofs.«113180_j13400297963682_1_alg».proof.Proof.KernelRun
import proofs.«113180_j13400297963682_1_alg».proof.Proof.NodeValue
import proofs.«113180_j13400297963682_1_alg».proof.Proof.EdgeValue
import Idealize.ShloMosaic.Adequacy
import Idealize.ShloMosaic.Init

noncomputable section

namespace Cert.Proof

open Idealize.ShloMosaic Idealize.ShloMosaic.TcCoe Idealize.SL.Sem Cert.OneHot

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the arguments both programs end with the node logits and the edge logits of the
    kernel's token table: the kernel by its two regions' output arrays, the reference by reading its operations at
    an index, the token tables identified by the agreement. -/
theorem algebraic : Cert.algebraic_KernelIdeal_ReferenceIdeal := by
  intro m ρ m' ρ' _ hagree
  refine ⟨fun c => nodeLogits (m ((c.tc : Thread Cert.KernelIdeal.nD Cert.KernelIdeal.τ).loc Cert.KernelIdeal.main_arg0)),
    fun c => edgeLogits (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.NodeLogits.final m ρ c),
        (h c).2.1.trans (Cert.KernelIdeal.EdgeLogits.final m ρ c), (h c).2.2⟩)
      (Cert.KernelIdeal.Outputs.run m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v5_eq, Cert.ReferenceIdeal.Logits.node_eq, (hagree c).1]
    · rw [(h c).2.1, Cert.ReferenceIdeal.Read.val_main_v11_eq, Cert.ReferenceIdeal.Logits.edge_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
